-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x512 : Shape := ⟨3, ![1, 50000, 512]⟩
abbrev S1x2x800000 : Shape := ⟨3, ![1, 2, 800000]⟩
abbrev S1x50000x256 : Shape := ⟨3, ![1, 50000, 256]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S1x50000x512 : S_.BroadcastsInDim S1x50000x512 (![] : Fin 0 → Fin S1x50000x512.rank)
  reducesTo_S1x50000x512_S_d0_1_2 : S1x50000x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S1x50000x512 .f32) (main_arg1 : IVec S1x2x800000 32) (main_arg2 : IVec S1x50000x256 32) (main_arg3 : FVec F S512x256 .f32) (main_arg4 : FVec F S256 .f32) (main_arg5 : FVec F S256x64 .f32) (main_arg6 : FVec F S64 .f32) : IVec S_ 1 :=
  let main_v0 : FVec F S1x50000x512 .f32 := Host.absf main_arg0
  let main_cst : FVec F S_ .f32 := constant S_ .f32 0x7F800000#32
  let main_v1 : FVec F S1x50000x512 .f32 := broadcastInDim S1x50000x512 ![] bcast_S_S1x50000x512 main_cst
  let main_v2 : IVec S1x50000x512 1 := cmpf .olt main_v0 main_v1
  let main_c : IVec S_ 1 := constantI S_ 1 1#1
  let main_v3 : IVec S_ 1 := (fun x v => Host.reduce IntOp.andi x v reducesTo_S1x50000x512_S_d0_1_2 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg6 main_v13 main_v16
-- ==== Kernel.lean ====
abbrev S1x50000x512 : Shape := ⟨3, ![1, 50000, 512]⟩
abbrev S1x2x800000 : Shape := ⟨3, ![1, 2, 800000]⟩
abbrev S1x50000x256 : Shape := ⟨3, ![1, 50000, 256]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000x512 : Shape := ⟨2, ![50000, 512]⟩
abbrev S1x1x800000 : Shape := ⟨3, ![1, 1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S1x50000x64 : Shape := ⟨3, ![1, 50000, 64]⟩

abbrev nBuf : Space → Nat
  | .hbm => 91
  | .vmem => 13
  | .smem => 0
  | _ => 0

abbrev bufTy : (tb : Table) → Fin (tcTables nBuf tb) → BufTy
  | .hbm, ⟨0, _⟩ => ⟨S1x50000x512, .f32⟩
  | .hbm, ⟨1, _⟩ => ⟨S1x2x800000, .i32⟩
  | .hbm, ⟨2, _⟩ => ⟨S1x50000x256, .i32⟩
  | .hbm, ⟨3, _⟩ => ⟨S512x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S50000x512, .f32⟩
  | .hbm, ⟨8, _⟩ => ⟨S1x1x800000, .i32⟩
  | .hbm, ⟨9, _⟩ => ⟨S800000, .i32⟩
  | .hbm, ⟨10, _⟩ => ⟨S1x1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S512x256, .bf16⟩
  | .hbm, ⟨49, _⟩ => ⟨S256x64, .bf16⟩
  | .hbm, ⟨50, _⟩ => ⟨S50000x256, .i32⟩
  | .hbm, ⟨51, _⟩ => ⟨S50000x256, .bf16⟩
  | .hbm, ⟨52, _⟩ => ⟨S50000x256, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x256, .f32⟩
  | .hbm, ⟨62, _⟩ => ⟨S850000x1, .f32⟩
  | .hbm, ⟨63, _⟩ => ⟨S850000x256, .f32⟩
  | .hbm, ⟨64, _⟩ => ⟨S850000x256, .f32⟩
  | .hbm, ⟨65, _⟩ => ⟨S_, .f32⟩
  | .hbm, ⟨66, _⟩ => ⟨S50000x256, .f32⟩
  | .hbm, ⟨67, _⟩ => ⟨S850000x1, .i32⟩
  | .hbm, ⟨68, _⟩ => ⟨S50000x256, .f32⟩
  | .hbm, ⟨69, _⟩ => ⟨S1x256, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x1, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | .hbm, ⟨90, _⟩ => ⟨S1x50000x64, .f32⟩
  | .local _ .vmem, ⟨0, _⟩ => ⟨S2000x512, .f32⟩
  | .local _ .vmem, ⟨1, _⟩ => ⟨S2000x512, .f32⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .bf16⟩
  | .local _ .vmem, ⟨9, _⟩ => ⟨S2000x256, .bf16⟩
  | .local _ .vmem, ⟨10, _⟩ => ⟨S256x64, .bf16⟩
  | .local _ .vmem, ⟨11, _⟩ => ⟨S2000x64, .f32⟩
  | .local _ .vmem, ⟨12, _⟩ => ⟨S2000x64, .f32⟩
  | _, _ => ⟨S1x50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x50000x512_S50000x512 : S1x50000x512.ShapeCasts S50000x512
  slices_S1x2x800000_S1x1x800000_0_0_0 : S1x2x800000.Slices ![0, 0, 0] S1x1x800000
  shapeCasts_S1x1x800000_S800000 : S1x1x800000.ShapeCasts S800000
  slices_S1x2x800000_S1x1x800000_0_1_0 : S1x2x800000.Slices ![0, 1, 0] S1x1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  shapeCasts_S1x50000x256_S50000x256 : S1x50000x256.ShapeCasts S50000x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x64_S1x50000x64_1_2 : S50000x64.BroadcastsInDim S1x50000x64 (![1, 2] : Fin 2 → Fin S1x50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .bf16 = 32 ∨ (Rect.block (s := S50000x256) S2000x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x50000x512 : Shape := ⟨3, ![1, 50000, 512]⟩
abbrev S1x2x800000 : Shape := ⟨3, ![1, 2, 800000]⟩
abbrev S1x50000x256 : Shape := ⟨3, ![1, 50000, 256]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000x512 : Shape := ⟨2, ![50000, 512]⟩
abbrev S1x1x800000 : Shape := ⟨3, ![1, 1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S1x50000x64 : Shape := ⟨3, ![1, 50000, 64]⟩

abbrev nBuf : Space → Nat
  | .hbm => 134
  | .vmem => 0
  | .smem => 0
  | _ => 0

abbrev hbmTy0_0 (i : Nat) : BufTy := match i % 128 with
  | 0 => ⟨S1x50000x512, .f32⟩
  | 1 => ⟨S1x2x800000, .i32⟩
  | 2 => ⟨S1x50000x256, .i32⟩
  | 3 => ⟨S512x256, .f32⟩
  | 4 => ⟨S256, .f32⟩
  | 5 => ⟨S256x64, .f32⟩
  | 6 => ⟨S64, .f32⟩
  | 7 => ⟨S50000x512, .f32⟩
  | 8 => ⟨S1x1x800000, .i32⟩
  | 9 => ⟨S800000, .i32⟩
  | 10 => ⟨S1x1x800000, .i32⟩
  | 11 => ⟨S800000, .i32⟩
  | 12 => ⟨S50000x256, .i32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x256, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x256, .f32⟩
  | 59 => ⟨S850000x1, .f32⟩
  | 60 => ⟨S850000x256, .f32⟩
  | 61 => ⟨S850000x256, .f32⟩
  | 62 => ⟨S_, .f32⟩
  | 63 => ⟨S50000x256, .f32⟩
  | 64 => ⟨S850000x1, .i32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000, .i32⟩
  | 78 => ⟨S850000, .i32⟩
  | 79 => ⟨S850000, .i32⟩
  | 80 => ⟨S_, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S50000x64, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x64, .f32⟩
  | 123 => ⟨S850000x1, .f32⟩
  | 124 => ⟨S850000x64, .f32⟩
  | 125 => ⟨S850000x64, .f32⟩
  | 126 => ⟨S_, .f32⟩
  | 127 => ⟨S50000x64, .f32⟩
  | _ => ⟨S1x50000x512, .f32⟩

abbrev hbmTy0_1 (i : Nat) : BufTy := match i % 128 with
  | 0 => ⟨S850000x1, .i32⟩
  | 1 => ⟨S50000x64, .f32⟩
  | 2 => ⟨S1x64, .f32⟩
  | 3 => ⟨S50000x64, .f32⟩
  | 4 => ⟨S50000x64, .f32⟩
  | 5 => ⟨S1x50000x64, .f32⟩
  | _ => ⟨S1x50000x512, .f32⟩

abbrev hbmTy (i : Nat) : BufTy := match i / 128 with
  | 0 => hbmTy0_0 i
  | 1 => hbmTy0_1 i
  | _ => ⟨S1x50000x512, .f32⟩

abbrev bufTy : (tb : Table) → Fin (tcTables nBuf tb) → BufTy
  | .hbm, ⟨i, _⟩ => hbmTy i
  | _, _ => ⟨S1x50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_call2_v0 : Ref sig .tc := ⟨.hbm, 91, rfl⟩
abbrev main_call2_v1 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_c_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩

abbrev nD : Nat := 1
abbrev τ : Topo := Topo.v7x

variable {F : FTy → Type} [FloatOps F]

class Facts₀ : Prop where
  shapeCasts_S1x50000x512_S50000x512 : S1x50000x512.ShapeCasts S50000x512
  slices_S1x2x800000_S1x1x800000_0_0_0 : S1x2x800000.Slices ![0, 0, 0] S1x1x800000
  shapeCasts_S1x1x800000_S800000 : S1x1x800000.ShapeCasts S800000
  slices_S1x2x800000_S1x1x800000_0_1_0 : S1x2x800000.Slices ![0, 1, 0] S1x1x800000
  shapeCasts_S1x50000x256_S50000x256 : S1x50000x256.ShapeCasts S50000x256
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x64_S1x50000x64_1_2 : S50000x64.BroadcastsInDim S1x50000x64 (![1, 2] : Fin 2 → Fin S1x50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelResult.lean ====
/-
  The idealized kernel program's run, with its result read.

  The program is five stretches of host operations around two kernel regions. The generated frame proof names the buffer
  contents at each boundary between them: `W0` (launch), `W1`, `W2`, `W3` after the first three stretches, `W4` after the first
  region, `W5` after the fourth stretch, `W6` after the second region, `W7` at the return. `run_result` is that same run —
  every weakly fair execution terminates, nothing faults — with the result buffer read off the last boundary beside the
  unchanged arguments.
-/
import proofs.«141177_j62818191671411_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with the
    result buffer at the last boundary's contents and the argument arrays as launched. -/
theorem run_result : θ_run defs (onTc (τ := τ) (main (F := F))) ⟨m, fun _ => 0, ρ⟩ (fun r => ∀ c : Dev nD,
      r.2.mem ((c.tc : Thread nD τ).loc main_v67) = W7 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v67 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Result

end
-- ==== Proof.LibMatrixRows.lean ====
/-
  Plain matrix products at the extended reals, and blocks of rows.

  A float at the ideal instance is an extended real, and both a kernel's matrix unit (into a zero accumulator) and the
  host's `dot_general` with the dimension numbers `[1] x [0]` compute, at an entry `(p, q)`, the sum over `k` of
  `L (p, k) * R (k, q)`. This file names that product (`mmul`), identifies both operations with it as whole functions,
  names the two ways a bias row is spread over the rows of a matrix, and proves the facts a row-blocked kernel needs:

  * `rows off h G` is the block of `M` consecutive rows of `G` starting at row `off`; a product's block of rows is the
    product of the left factor's block of rows with the WHOLE right factor (`rows_mmul`), and the row-wise operations
    (adding a bias row, `tanh`) commute with taking a block of rows;
  * when every entry of three matrices is a real number, their product is associative (`mmul_assoc`): on the extended
    reals distributivity fails at the infinities, so the hypothesis is needed.
-/
import Idealize.ShloMosaic.PureOps.Ideal.Laws
import Idealize.ShloMosaic.Lib.ValueIdx
import Idealize.ShloMosaic.Lib.Pipeline.Value

noncomputable section

open scoped BigOperators

namespace Cert.MatrixRows

open Idealize.ShloMosaic Idealize.ShloMosaic.ValueIdx

/-- An `M × N` matrix of extended reals, indexed as an array of shape `[M, N]`. -/
abbrev Mat (M N : Nat) : Type := (⟨2, ![M, N]⟩ : Shape).Idx → EReal

/-- The row coordinate of an index, typed by the literal extent. -/
abbrev row {M N : Nat} (i : (⟨2, ![M, N]⟩ : Shape).Idx) : Fin M := ⟨(i 0).val, idx2_lt0 i⟩
/-- The column coordinate of an index, typed by the literal extent. -/
abbrev col {M N : Nat} (i : (⟨2, ![M, N]⟩ : Shape).Idx) : Fin N := ⟨(i 1).val, idx2_lt1 i⟩

/-- The product of an `M × K` and a `K × N` matrix: entry `(p, q)` is `∑ k, L (p, k) * R (k, q)`. -/
def mmul {M K N : Nat} (L : Mat M K) (R : Mat K N) : Mat M N :=
  fun i => ∑ k : Fin K, L (ix2 (row i) k) * R (ix2 k (col i))

theorem mmul_apply {M K N : Nat} (L : Mat M K) (R : Mat K N) (p : Fin M) (q : Fin N) :
    mmul L R (ix2 p q) = ∑ k : Fin K, L (ix2 p k) * R (ix2 k q) := rfl

/-! ## The two printed products are `mmul` -/

theorem plain_lhs0 {M K N : Nat} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from fun h => nomatch h),
    dif_pos (show (0 : Fin 2) ∈ (DotDims.plain M K N).lhsNonContracting from List.mem_singleton.mpr rfl)]
  rfl

theorem plain_rhs1 {M K N : Nat} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from fun h => nomatch h),
    dif_pos (show (1 : Fin 2) ∈ (DotDims.plain M K N).rhsNonContracting from List.mem_singleton.mpr rfl)]
  rfl

/-- The contraction sum of the plain dimension numbers, re-indexed by the one contracted coordinate. -/
theorem plain_sum {M K N : Nat} (L : Mat M K) (R : Mat K N) (j : (⟨2, ![M, N]⟩ : Shape).Idx) :
    ∑ k : (DotDims.plain M K N).contr.Idx, L ((DotDims.plain M K N).lhsIdx j k) * R ((DotDims.plain M K N).rhsIdx j k)
      = mmul L R j := by
  unfold mmul
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (row j) k :=
    funext fun a => Fin.ext (by
      match a with
      | ⟨0, _⟩ => exact plain_lhs0 _ _
      | ⟨1, _⟩ => exact ((DotDims.plain M K N).lhsIdx_val_of_single rfl j _).trans hk)
  have er : (DotDims.plain M K N).rhsIdx j ((contrEquiv1 (DotDims.plain M K N) K rfl rfl).symm k) = ix2 k (col j) :=
    funext fun a => Fin.ext (by
      match a with
      | ⟨0, _⟩ => exact ((DotDims.plain M K N).rhsIdx_val_of_single rfl j _).trans hk
      | ⟨1, _⟩ => exact plain_rhs1 _ _)
  rw [el, er]

/-- A matrix unit's product into the zero accumulator is `mmul`. -/
theorem matmul_plain {M K N : Nat} (prec : Option ContractPrecision) (L : Mat M K) (R : Mat K N) :
    matmul (F := Ideal) (φ₁ := .f32) (φ₂ := .f32) (DotDims.plain M K N) prec L R (constant ⟨2, ![M, N]⟩ .f32 0x00000000#32) = mmul L R :=
  funext fun j => (Ideal.matmul_constant_zero_apply (φ₁ := .f32) (φ₂ := .f32) (DotDims.plain M K N) prec L R j).trans (plain_sum L R j)

/-- The host's `dot_general` is `mmul`. -/
theorem dotGeneral_plain {M K N : Nat} (prec : Option ContractPrecision) (L : Mat M K) (R : Mat K N) :
    Host.dotGeneral (F := Ideal) (φ₁ := .f32) (φ₂ := .f32) (DotDims.plain M K N) prec L R = mmul L R :=
  funext fun j => (Ideal.dotGeneral_apply (φ₁ := .f32) (φ₂ := .f32) (DotDims.plain M K N) prec .single L R j).trans (plain_sum L R j)

/-! ## A bias row spread over the rows -/

/-- A `[1, N]` row added to every row of an `M × N` matrix. -/
def addRow {M N : Nat} (A : Mat M N) (b : Mat 1 N) : Mat M N := fun i => A i + b (ix2 0 (col i))

/-- `tanh` of every entry. -/
def tanhM {M N : Nat} (A : Mat M N) : Mat M N := fun i => Ideal.tanh (A i)

/-- The kernel's spelling: the row shape-cast to itself, broadcast along the rows, added. -/
theorem addf_broadcastTo {M N : Nat} (A : Mat M N) (b : Mat 1 N) (h1 : (⟨2, ![1, N]⟩ : Shape).ShapeCasts ⟨2, ![1, N]⟩)
    (h2 : (⟨2, ![1, N]⟩ : Shape).Broadcasts ⟨2, ![M, N]⟩) :
    addf (F := Ideal) (φ := .f32) A (broadcastTo ⟨2, ![M, N]⟩ (shapeCast ⟨2, ![1, N]⟩ b h1) h2) = addRow A b := by
  funext i
  rw [shapeCast_self]
  show A i + _ = A i + _
  refine congrArg (A i + ·) ?_
  refine broadcastTo_apply b h2 i (ix2 0 (col i)) fun a => ?_
  match a with
  | ⟨0, _⟩ => show (0 : Nat) = if (1 : Nat) = 1 then 0 else _; rw [if_pos rfl]
  | ⟨1, _⟩ =>
    show (i 1).val = if N = 1 then 0 else (i 1).val
    by_cases hN : N = 1
    · rw [if_pos hN]; have := idx2_lt1 i; omega
    · rw [if_neg hN]

/-- A vector of `N` entries as a `[1, N]` row. -/
def asRow {N : Nat} (v : (⟨1, ![N]⟩ : Shape).Idx → EReal) : Mat 1 N := fun i => v (ix1 (col i))

/-- The reference's spelling of the bias: the vector broadcast to `[1, N]`, then to `[M, N]`, added. -/
theorem addf_broadcastInDim {M N : Nat} (A : Mat M N) (v : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) (φ := .f32) A (broadcastInDim ⟨2, ![M, N]⟩ ![0, 1] h2 (broadcastInDim ⟨2, ![1, N]⟩ ![1] h1 v)) = addRow A (asRow v) := by
  funext i
  show A i + _ = A i + _
  refine congrArg (A i + ·) ?_
  rw [broadcastInDim_apply ![0, 1] h2 _ i (ix2 0 (col i)) (fun a => by
    match a with
    | ⟨0, _⟩ => show (0 : Nat) = if (1 : Nat) = 1 then 0 else _; rw [if_pos rfl]
    | ⟨1, _⟩ =>
      show (i 1).val = if N = 1 then 0 else (i 1).val
      by_cases hN : N = 1
      · rw [if_pos hN]; have := idx2_lt1 i; omega
      · rw [if_neg hN])]
  refine broadcastInDim_apply ![1] h1 v (ix2 0 (col i)) (ix1 (col i)) fun a => ?_
  match a with
  | ⟨0, _⟩ =>
    show (i 1).val = if N = 1 then 0 else (i 1).val
    by_cases hN : N = 1
    · rw [if_pos hN]; have := idx2_lt1 i; omega
    · rw [if_neg hN]

/-- A vector reshaped to a `[1, N]` row is that row. -/
theorem shapeCast_asRow {N : Nat} (v : (⟨1, ![N]⟩ : Shape).Idx → EReal) (h : (⟨1, ![N]⟩ : Shape).ShapeCasts ⟨2, ![1, N]⟩) :
    shapeCast ⟨2, ![1, N]⟩ v h = asRow v := by
  funext i
  refine shapeCast_apply v h i (ix1 (col i)) ?_
  rw [Shape.rowMajor_val_one, Shape.rowMajor_val_two]
  show (i 1).val = (i 0).val * N + (i 1).val
  have : (i 0).val < 1 := idx2_lt0 i
  have h0 : (i 0).val = 0 := by omega
  rw [h0, Nat.zero_mul, Nat.zero_add]

/-! ## Blocks of rows -/

/-- The `M` consecutive rows of `G` from row `off` on. -/
def rows {M M' N : Nat} (off : Nat) (h : off + M ≤ M') (G : Mat M' N) : Mat M N :=
  fun i => G (ix2 (⟨off + (i 0).val, by have := idx2_lt0 i; omega⟩ : Fin M') (col i))

/-- A block of rows of a product is the block of rows of the left factor times the whole right factor. -/
theorem rows_mmul {M M' K N : Nat} (off : Nat) (h : off + M ≤ M') (L : Mat M' K) (R : Mat K N) :
    rows off h (mmul L R) = mmul (rows off h L) R := rfl

theorem rows_addRow {M M' N : Nat} (off : Nat) (h : off + M ≤ M') (A : Mat M' N) (b : Mat 1 N) :
    rows off h (addRow A b) = addRow (rows off h A) b := rfl

theorem rows_tanhM {M M' N : Nat} (off : Nat) (h : off + M ≤ M') (A : Mat M' N) :
    rows off h (tanhM A) = tanhM (rows off h A) := rfl

/-- All the rows: the matrix itself. -/
theorem rows_zero {M N : Nat} (h : 0 + M ≤ M) (G : Mat M N) : rows 0 h G = G := by
  funext i
  unfold rows
  refine congrArg G (funext fun a => Fin.ext ?_)
  match a with
  | ⟨0, _⟩ => show 0 + (i 0).val = (i 0).val; omega
  | ⟨1, _⟩ => rfl

/-! ## Associativity over the reals -/

/-- Every entry is a real number (neither infinity). -/
def AllReal {M N : Nat} (A : Mat M N) : Prop := ∀ i, ∃ r : ℝ, A i = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `(A · B) · C = A · (B · C)` for matrices of real numbers. -/
theorem mmul_assoc {M K J N : Nat} (A : Mat M K) (B : Mat K J) (C : Mat J N) (hA : AllReal A) (hB : AllReal B)
    (hC : AllReal C) : mmul (mmul A B) C = mmul A (mmul B C) := by
  choose a ha using hA
  choose b hb using hB
  choose c hc using hC
  funext i
  unfold mmul
  simp only [ha, hb, hc, ← EReal.coe_mul, ← coe_sum]
  refine congrArg _ ?_
  simp only [Finset.sum_mul, Finset.mul_sum]
  rw [Finset.sum_comm]
  exact Finset.sum_congr rfl fun k _ => Finset.sum_congr rfl fun l _ => mul_assoc _ _ _

end Cert.MatrixRows

end
-- ==== Proof.LibProductEntry.lean ====
/-
  Three small facts about plain matrix products and scalar constants at the extended reals.

  * `matmul_plain_any`: a matrix unit's product into the zero accumulator is the plain product `mmul` whatever float
    formats its two operands are stored in (at the extended reals every format holds the same numbers).
  * `mmul_congr_entry`: two plain products agree at two entries as soon as the left factors agree along the two rows and
    the right factors along the two columns — the step that turns "a block's product" into "the whole product read at the
    block's place".
  * `bcast_scalar`: a scalar float constant spread over any shape reads as the constant's value at every index.
-/
import proofs.«141177_j62818191671411_2_alg».proof.Proof.LibMatrixRows
import Idealize.ShloMosaic.Lib.Pipeline.Value
import Idealize.ShloMosaic.Lib.ValueIdx
import Idealize.ShloMosaic.PureOps.Ideal.Laws

noncomputable section

open scoped BigOperators

namespace Cert.MatrixRows

open Idealize.ShloMosaic Idealize.ShloMosaic.ValueIdx

/-- The matrix unit into a zero accumulator is the plain product, whatever float formats its operands are stored in. -/
theorem matmul_plain_any {M K N : Nat} {φ₁ φ₂ : FTy} (prec : Option ContractPrecision) (L : Mat M K) (R : Mat K N) :
    matmul (F := Ideal) (φ₁ := φ₁) (φ₂ := φ₂) (DotDims.plain M K N) prec L R (constant ⟨2, ![M, N]⟩ .f32 0x00000000#32) = mmul L R :=
  funext fun j => (Ideal.matmul_constant_zero_apply (φ₁ := φ₁) (φ₂ := φ₂) (DotDims.plain M K N) prec L R j).trans (plain_sum L R j)

/-- Two products agree at two entries when the left factors agree along the two rows and the right factors along the two
    columns. -/
theorem mmul_congr_entry {M M' K N N' : Nat} (L : Mat M K) (R : Mat K N) (L' : Mat M' K) (R' : Mat K N')
    (j : (⟨2, ![M, N]⟩ : Shape).Idx) (j' : (⟨2, ![M', N']⟩ : Shape).Idx)
    (hL : ∀ k : Fin K, L (ix2 (row j) k) = L' (ix2 (row j') k)) (hR : ∀ k : Fin K, R (ix2 k (col j)) = R' (ix2 k (col j'))) :
    mmul L R j = mmul L' R' j' :=
  Finset.sum_congr rfl fun k _ => by rw [hL k, hR k]

/-- A scalar float constant spread over any shape reads as the constant's value everywhere. -/
theorem bcast_scalar (t : Shape) (h : (⟨0, ![]⟩ : Shape).BroadcastsInDim t (![] : Fin 0 → Fin t.rank)) (w : BitVec 32) (j : t.Idx) :
    broadcastInDim t ![] h (constant (F := Ideal) ⟨0, ![]⟩ .f32 w) j = Ideal.ofBits .f32 w :=
  broadcastInDim_apply ![] h _ j ix0 (fun a => a.elim0)

end Cert.MatrixRows

end
-- ==== Proof.RowBlocks.lean ====
/-
  What the two row-blocked matrix kernels leave in their output arrays, at the extended reals.

  Each kernel walks 25 grid points; point `t` reads rows `2000 t … 2000 t + 1999` of its row-blocked operands and the whole
  of its other operands, and writes rows `2000 t … 2000 t + 1999` of the output. The body's value at a point is a plain
  matrix product whose left factor is built row by row from the point's rows, so it is the same rows of ONE whole-array
  product (a block of rows of a product is the block of rows of the left factor times the whole right factor), and the 25
  row blocks tile the output: the output array ends holding that whole-array product.

  * first kernel: `X · W`, `X` 50000 × 512 and `W` 512 × 256;
  * second kernel: `H · W`, where `H (p, q) = max (A (p, q) + b (0, q)) 0 · K (p, q) · 2` is built from a 50000 × 256 matrix
    `A`, a bias row `b` and a 50000 × 256 matrix of factors `K`, and `W` is 256 × 64.

  Narrowing a value to a shorter float format and widening it back do nothing at the extended reals, and the matrix unit
  into a zero accumulator is the sum over the contracted index.
-/
import proofs.«141177_j62818191671411_2_alg».proof.Proof.Gen.KernelIdeal.Frame
import proofs.«141177_j62818191671411_2_alg».proof.Proof.LibMatrixRows
import proofs.«141177_j62818191671411_2_alg».proof.Proof.LibProductEntry
import Idealize.ShloMosaic.Lib.Pipeline.Value
import Idealize.ShloMosaic.Lib.ValueIdx
import Idealize.ShloMosaic.PureOps.Ideal.Laws

noncomputable section

open scoped BigOperators

namespace Cert.KernelIdeal.RowBlocks

open Idealize.ShloMosaic Idealize.ShloMosaic.TcCoe Idealize.ShloMosaic.ValueIdx Idealize.SL.Sem
open Cert.KernelIdeal Cert.KernelIdeal.Gen Cert.MatrixRows Cert.KernelIdeal.Facts₀
open Idealize.ShloMosaic.Pipeline (Dat Cfg Window)

theorem zero_offsets : (![0, 0] : Fin 2 → Nat) = fun _ => 0 := funext fun a => by fin_cases a <;> rfl

/-! ## The first kernel: `X · W` -/

/-- The body's value from its two loaded blocks is their plain product. -/
theorem firstBody (x0 : FVec Ideal S2000x512 .f32) (x1 : FVec Ideal S512x256 .bf16) :
    k0_pay1 (F := Ideal) x0 x1 = mmul (M := 2000) (K := 512) (N := 256) x0 x1 := by
  unfold k0_pay1
  dsimp only
  rw [shapeCast_self, shapeCast_self]
  exact matmul_plain_any (φ₁ := .bf16) (φ₂ := .bf16) none x0 x1

/-- Where each window's block sits at grid point `t`: the row-blocked windows at block row `t`, everything else at 0. -/
theorem firstIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole product of the arrays the region finds. -/
theorem firstFlushed (c : Dev nD) (t : Fin cfg0.N) :
    (dat0 V c).flushed 2 t = ((cfg0.win 2).blk t).view.read (Elt Ideal)
      (mmul (M := 50000) (K := 512) (N := 256) (V c main_v0) (V c main_v31)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x256) zero_offsets]
  rw [firstBody]
  obtain ⟨e0, e1, e2, e3, e4, e5⟩ := firstIndex t
  funext j
  show mmul (M := 2000) (K := 512) (N := 256) (iblk0 V c 0 t) (iblk0 V c 1 t) j
    = mmul (M := 50000) (K := 512) (N := 256) (V c main_v0) (V c main_v31) (((cfg0.win 2).blk t).view.emb j)
  refine mmul_congr_entry (iblk0 V c 0 t) (iblk0 V c 1 t) (V c main_v0) (V c main_v31) j (((cfg0.win 2).blk t).view.emb j) (fun k => ?_) (fun k => ?_)
  · show V c main_v0 (((cfg0.win 0).blk t).view.emb (ix2 (row j) k)) = V c main_v0 (ix2 (row (((cfg0.win 2).blk t).view.emb j)) k)
    refine congrArg (V c main_v0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_v31 (((cfg0.win 1).blk t).view.emb (ix2 k (col j))) = V c main_v31 (ix2 k (col (((cfg0.win 2).blk t).view.emb j)))
    refine congrArg (V c main_v31) (funext fun a => Fin.ext ?_)
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega

/-- An index of the output array is in point `t`'s block iff each coordinate is in the block's range on its axis. -/
theorem firstMem (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v35).slice (win0_2.rect t)).set ↔ _
  rw [View.set_slice_whole, Rect.mem_set_unit]
  exact Iff.rfl

/-- Row `r` of the output is written by point `r / 2000`. -/
theorem firstCover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := N_0
  have ht : (i 0).val / 2000 < cfg0.N := by show (i 0).val / 2000 < grid0.N; omega
  obtain ⟨e0, e1, e2, e3, e4, e5⟩ := firstIndex ⟨(i 0).val / 2000, ht⟩
  refine ⟨⟨(i 0).val / 2000, ht⟩, flush0_2 _, ?_⟩
  rw [firstMem]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 256 ≤ (i 1).val ∧ (i 1).val < win0_2.index ⟨(i 0).val / 2000, ht⟩ (1 : Fin 2) * 256 + 256
    rw [e5]; omega

/-- The first kernel's output array after the region: the whole product. -/
theorem firstProduct (c : Dev nD) :
    (dat0 V c).arrAt 2 cfg0.N = mmul (M := 50000) (K := 512) (N := 256) (V c main_v0) (V c main_v31) :=
  (dat0 V c).arrAt_eq_of_cover 2 _ (fun t _ => firstFlushed V c t) firstCover

/-! ## The second kernel: `H · W` -/

/-- The second product's left factor, entry by entry: the bias row added, clamped below at zero, times the factor,
    doubled. -/
def clampScale {M : Nat} (a : Mat M 256) (b : Mat 1 256) (k : Mat M 256) : Mat M 256 :=
  fun i => max (addRow a b i) (Ideal.ofBits .f32 0x00000000#32) * k i * Ideal.ofBits .f32 0x40000000#32

/-- An entry of the left factor depends on the same entry of the matrix and of the factors and on the bias entry of its
    column. -/
theorem clampScale_congr {M M' : Nat} (a : Mat M 256) (b : Mat 1 256) (k : Mat M 256) (a' : Mat M' 256) (b' : Mat 1 256)
    (k' : Mat M' 256) (i : (⟨2, ![M, 256]⟩ : Shape).Idx) (i' : (⟨2, ![M', 256]⟩ : Shape).Idx) (ha : a i = a' i')
    (hb : b (ix2 0 (col i)) = b' (ix2 0 (col i'))) (hk : k i = k' i') : clampScale a b k i = clampScale a' b' k' i' := by
  unfold clampScale addRow
  rw [ha, hb, hk]

/-- The body's value from its four loaded blocks: the left factor built from the first three, times the fourth. -/
theorem secondBody (x0 : FVec Ideal S2000x256 .f32) (x2 : FVec Ideal S1x256 .f32) (x8 : FVec Ideal S2000x256 .bf16)
    (x15 : FVec Ideal S256x64 .bf16) :
    k1_pay1 (F := Ideal) x0 x2 x8 x15 = mmul (M := 2000) (K := 256) (N := 64) (clampScale x0 x2 x8) x15 := by
  unfold k1_pay1
  dsimp only
  rw [addf_broadcastTo]
  simp only [shapeCast_self]
  exact matmul_plain_any (φ₁ := .bf16) (φ₂ := .bf16) none (clampScale x0 x2 x8) x15

/-- Where each window's block sits at grid point `t`: the row-blocked windows at block row `t`, everything else at 0. -/
theorem secondIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the whole product of the arrays the region finds. -/
theorem secondFlushed (c : Dev nD) (t : Fin cfg1.N) :
    (dat1 V c).flushed 4 t = ((cfg1.win 4).blk t).view.read (Elt Ideal)
      (mmul (M := 50000) (K := 256) (N := 64) (clampScale (V c main_v48) (V c main_v49) (V c main_v34)) (V c main_v32)) := by
  show (cfg1.win 4).cut (grid1.coords t) ((dat1 V c).after 4 t) = _
  rw [after1_4]
  unfold out1_4
  rw [View.canon_unit_zero zero_offsets]
  simp only [View.ld_unit_zero (S := S2000x256) zero_offsets, View.ld_unit_zero (S := S1x256) zero_offsets,
    View.ld_unit_zero (S := S256x64) zero_offsets]
  rw [secondBody]
  obtain ⟨e0, e1, e2, e3, e4, e5, e6, e7, e8, e9⟩ := secondIndex t
  funext j
  show mmul (M := 2000) (K := 256) (N := 64) (clampScale (iblk1 V c 0 t) (iblk1 V c 1 t) (iblk1 V c 2 t)) (iblk1 V c 3 t) j
    = mmul (M := 50000) (K := 256) (N := 64) (clampScale (V c main_v48) (V c main_v49) (V c main_v34)) (V c main_v32)
        (((cfg1.win 4).blk t).view.emb j)
  refine mmul_congr_entry (clampScale (iblk1 V c 0 t) (iblk1 V c 1 t) (iblk1 V c 2 t)) (iblk1 V c 3 t)
    (clampScale (V c main_v48) (V c main_v49) (V c main_v34)) (V c main_v32) j (((cfg1.win 4).blk t).view.emb j)
    (fun k => ?_) (fun k => ?_)
  · refine clampScale_congr (iblk1 V c 0 t) (iblk1 V c 1 t) (iblk1 V c 2 t) (V c main_v48) (V c main_v49) (V c main_v34)
      (ix2 (row j) k) (ix2 (row (((cfg1.win 4).blk t).view.emb j)) k) ?_ ?_ ?_
    · show V c main_v48 (((cfg1.win 0).blk t).view.emb (ix2 (row j) k)) = V c main_v48 (ix2 (row (((cfg1.win 4).blk t).view.emb j)) k)
      refine congrArg (V c main_v48) (funext fun a => Fin.ext ?_)
      match a with
      | ⟨0, _⟩ => show win1_0.index t (0 : Fin 2) * 2000 + 1 * (j 0).val = win1_4.index t (0 : Fin 2) * 2000 + 1 * (j 0).val; omega
      | ⟨1, _⟩ => show win1_0.index t (1 : Fin 2) * 256 + 1 * k.val = k.val; omega
    · show V c main_v49 (((cfg1.win 1).blk t).view.emb (ix2 0 (col (ix2 (row j) k))))
        = V c main_v49 (ix2 0 (col (ix2 (row (((cfg1.win 4).blk t).view.emb j)) k)))
      refine congrArg (V c main_v49) (funext fun a => Fin.ext ?_)
      match a with
      | ⟨0, _⟩ => show win1_1.index t (0 : Fin 2) * 1 + 1 * 0 = 0; omega
      | ⟨1, _⟩ => show win1_1.index t (1 : Fin 2) * 256 + 1 * k.val = k.val; omega
    · show V c main_v34 (((cfg1.win 2).blk t).view.emb (ix2 (row j) k)) = V c main_v34 (ix2 (row (((cfg1.win 4).blk t).view.emb j)) k)
      refine congrArg (V c main_v34) (funext fun a => Fin.ext ?_)
      match a with
      | ⟨0, _⟩ => show win1_2.index t (0 : Fin 2) * 2000 + 1 * (j 0).val = win1_4.index t (0 : Fin 2) * 2000 + 1 * (j 0).val; omega
      | ⟨1, _⟩ => show win1_2.index t (1 : Fin 2) * 256 + 1 * k.val = k.val; omega
  · show V c main_v32 (((cfg1.win 3).blk t).view.emb (ix2 k (col j))) = V c main_v32 (ix2 k (col (((cfg1.win 4).blk t).view.emb j)))
    refine congrArg (V c main_v32) (funext fun a => Fin.ext ?_)
    match a with
    | ⟨0, _⟩ => show win1_3.index t (0 : Fin 2) * 256 + 1 * k.val = k.val; omega
    | ⟨1, _⟩ => show win1_3.index t (1 : Fin 2) * 64 + 1 * (j 1).val = win1_4.index t (1 : Fin 2) * 64 + 1 * (j 1).val; omega

/-- An index of the output array is in point `t`'s block iff each coordinate is in the block's range on its axis. -/
theorem secondMem (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v50).slice (win1_4.rect t)).set ↔ _
  rw [View.set_slice_whole, Rect.mem_set_unit]
  exact Iff.rfl

/-- Row `r` of the output is written by point `r / 2000`. -/
theorem secondCover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 25 := N_1
  have ht : (i 0).val / 2000 < cfg1.N := by show (i 0).val / 2000 < grid1.N; omega
  obtain ⟨e0, e1, e2, e3, e4, e5, e6, e7, e8, e9⟩ := secondIndex ⟨(i 0).val / 2000, ht⟩
  refine ⟨⟨(i 0).val / 2000, ht⟩, flush1_4 _, ?_⟩
  rw [secondMem]
  intro a
  match a with
  | ⟨0, _⟩ =>
    show win1_4.index ⟨(i 0).val / 2000, ht⟩ (0 : Fin 2) * 2000 ≤ (i 0).val ∧ (i 0).val < win1_4.index ⟨(i 0).val / 2000, ht⟩ (0 : Fin 2) * 2000 + 2000
    rw [e8]; show (i 0).val / 2000 * 2000 ≤ (i 0).val ∧ (i 0).val < (i 0).val / 2000 * 2000 + 2000; omega
  | ⟨1, _⟩ =>
    show win1_4.index ⟨(i 0).val / 2000, ht⟩ (1 : Fin 2) * 64 ≤ (i 1).val ∧ (i 1).val < win1_4.index ⟨(i 0).val / 2000, ht⟩ (1 : Fin 2) * 64 + 64
    rw [e9]; omega

/-- The second kernel's output array after the region: the whole product. -/
theorem secondProduct (c : Dev nD) :
    (dat1 V c).arrAt 4 cfg1.N
      = mmul (M := 50000) (K := 256) (N := 64) (clampScale (V c main_v48) (V c main_v49) (V c main_v34)) (V c main_v32) :=
  (dat1 V c).arrAt_eq_of_cover 4 _ (fun t _ => secondFlushed V c t) secondCover

end Cert.KernelIdeal.RowBlocks

end
-- ==== Proof.GcnLayers.lean ====
/-
  A two-layer graph convolution as one function of its argument arrays, at the extended reals.

  The graph has 50000 nodes and 800000 directed edges, given as a source row and a destination row of node numbers; every
  node also gets a self loop, so the edge lists have 850000 entries (`srcs`, `dsts`). A node's degree is the number of list
  entries whose destination it is (`degree`: a scatter-add of ones), its weight the inverse square root of the degree where
  the degree is positive and zero elsewhere (`degInv`), and an edge's weight the product of the weights of its two ends
  (`edgeNorm`). A node number taken from the lists is read the way array indexing reads it: a negative number counts from
  the end (`wrap`).

  One propagation step (`aggregate256`, `aggregate64`) takes a matrix with one row per node: for every edge the source's
  row, scaled by the edge's weight, is added into the destination's row of a matrix of zeros.

  A layer is a dense product followed by a propagation step and a bias row. Between the two layers every entry is clamped
  below at zero, multiplied by the integer mask entry read as a number, and doubled (`hidden`). The whole network is `gcn`.
  Both dense products are written as the plain matrix product `mmul`.
-/
import proofs.«141177_j62818191671411_2_alg».proof.Proof.Gen.KernelIdeal
import proofs.«141177_j62818191671411_2_alg».proof.Proof.LibMatrixRows
import Idealize.ShloMosaic.PureOps.Ideal

noncomputable section

namespace Cert.Gcn

open Idealize.ShloMosaic Cert.KernelIdeal Cert.KernelIdeal.Facts₀ Cert.MatrixRows

/-- The 800000 edge sources followed by the 50000 node numbers (the self loops). -/
def srcs (e : IVec S1x2x800000 32) : IVec S850000 32 :=
  concatenate S850000 0 [⟨S800000, (shapeCast _ (extractStridedSlice S1x1x800000 ![0, 0, 0] e slices_S1x2x800000_S1x1x800000_0_0_0) shapeCasts_S1x1x800000_S800000)⟩, ⟨S50000, (iotaInDim S50000 32 0)⟩] concatenates_S800000_S50000_S850000_d0

/-- The 800000 edge destinations followed by the 50000 node numbers (the self loops). -/
def dsts (e : IVec S1x2x800000 32) : IVec S850000 32 :=
  concatenate S850000 0 [⟨S800000, (shapeCast _ (extractStridedSlice S1x1x800000 ![0, 1, 0] e slices_S1x2x800000_S1x1x800000_0_1_0) shapeCasts_S1x1x800000_S800000)⟩, ⟨S50000, (iotaInDim S50000 32 0)⟩] concatenates_S800000_S50000_S850000_d0

/-- A node number as array indexing reads it: a negative one has 50000 added. -/
def wrap (r : IVec S850000 32) : IVec S850000 32 :=
  select (cmpi .slt r (broadcastInDim S850000 ![] bcast_S_S850000 (constantI S_ 32 0#32))) (addi r (broadcastInDim S850000 ![] bcast_S_S850000 (constantI S_ 32 50000#32))) r

/-- How many list entries have each node as their destination. -/
def degree (e : IVec S1x2x800000 32) : FVec Ideal S50000 .f32 :=
  Host.scatterAdd scatter_S50000_S850000x1_S850000_n_0_0_1 (broadcastInDim S50000 ![] bcast_S_S50000 (constant (F := Ideal) S_ .f32 0x00000000#32)) (broadcastInDim S850000x1 ![0] bcast_S850000_S850000x1_0 (dsts e)) (broadcastInDim S850000 ![] bcast_S_S850000 (constant (F := Ideal) S_ .f32 0x3F800000#32))

/-- The inverse square root of a positive degree, zero where the degree is not positive. -/
def degInv (e : IVec S1x2x800000 32) : FVec Ideal S50000 .f32 :=
  select (cmpf (F := Ideal) .ogt (degree e) (broadcastInDim S50000 ![] bcast_S_S50000 (constant (F := Ideal) S_ .f32 0x00000000#32))) (Host.rsqrt (degree e)) (broadcastInDim S50000 ![] bcast_S_S50000 (id (constant (F := Ideal) S_ .f32 0x00000000#32)))

/-- An edge's weight: the product of the weights of its source and of its destination. -/
def edgeNorm (e : IVec S1x2x800000 32) : FVec Ideal S850000 .f32 :=
  mulf (Host.gather gather_S50000_S850000x1_S850000_n_0_n_n_0_1_1 (degInv e) (broadcastInDim S850000x1 ![0] bcast_S850000_S850000x1_0 (wrap (srcs e)))) (Host.gather gather_S50000_S850000x1_S850000_n_0_n_n_0_1_1 (degInv e) (broadcastInDim S850000x1 ![0] bcast_S850000_S850000x1_0 (wrap (dsts e))))

/-- One propagation step on 256 columns: each edge adds its source's row, scaled by the edge's weight, into its
    destination's row of a matrix of zeros. -/
def aggregate256 (h : FVec Ideal S50000x256 .f32) (e : IVec S1x2x800000 32) : FVec Ideal S50000x256 .f32 :=
  Host.scatterAdd scatter_S50000x256_S850000x1_S850000x256_1_0_0_1 (broadcastInDim S50000x256 ![] bcast_S_S50000x256 (constant (F := Ideal) S_ .f32 0x00000000#32)) (broadcastInDim S850000x1 ![0] bcast_S850000_S850000x1_0 (dsts e)) (mulf (Host.gather gather_S50000x256_S850000x1_S850000x256_1_0_n_n_0_1_1256 h (broadcastInDim S850000x1 ![0] bcast_S850000_S850000x1_0 (wrap (srcs e)))) (broadcastInDim S850000x256 ![0, 1] bcast_S850000x1_S850000x256_0_1 (broadcastInDim S850000x1 ![0] bcast_S850000_S850000x1_0 (edgeNorm e))))

/-- The same step on 64 columns. -/
def aggregate64 (h : FVec Ideal S50000x64 .f32) (e : IVec S1x2x800000 32) : FVec Ideal S50000x64 .f32 :=
  Host.scatterAdd scatter_S50000x64_S850000x1_S850000x64_1_0_0_1 (broadcastInDim S50000x64 ![] bcast_S_S50000x64 (constant (F := Ideal) S_ .f32 0x00000000#32)) (broadcastInDim S850000x1 ![0] bcast_S850000_S850000x1_0 (dsts e)) (mulf (Host.gather gather_S50000x64_S850000x1_S850000x64_1_0_n_n_0_1_164 h (broadcastInDim S850000x1 ![0] bcast_S850000_S850000x1_0 (wrap (srcs e)))) (broadcastInDim S850000x64 ![0, 1] bcast_S850000x1_S850000x64_0_1 (broadcastInDim S850000x1 ![0] bcast_S850000_S850000x1_0 (edgeNorm e))))

/-- Between the layers: add the bias row, clamp below at zero, multiply by the mask entry read as a number, double. -/
def hidden (a : Mat 50000 256) (b : (⟨1, ![256]⟩ : Shape).Idx → EReal) (mask : IVec S50000x256 32) : Mat 50000 256 :=
  fun i => max (a i + b (ValueIdx.ix1 (col i))) (Ideal.ofBits .f32 0x00000000#32) * (((mask i).toInt : ℝ) : EReal) * Ideal.ofBits .f32 0x40000000#32

/-- The network: product with the first weights, propagation, the step between the layers, product with the second
    weights, propagation, the second bias row; the result carries a leading axis of extent one. -/
def gcn (x : FVec Ideal S1x50000x512 .f32) (e : IVec S1x2x800000 32) (mask : IVec S1x50000x256 32) (w1 : FVec Ideal S512x256 .f32)
    (b1 : FVec Ideal S256 .f32) (w2 : FVec Ideal S256x64 .f32) (b2 : FVec Ideal S64 .f32) : FVec Ideal S1x50000x64 .f32 :=
  broadcastInDim S1x50000x64 ![1, 2] bcast_S50000x64_S1x50000x64_1_2
    (addf (aggregate64 (mmul (hidden (aggregate256 (mmul (shapeCast S50000x512 x shapeCasts_S1x50000x512_S50000x512) w1) e) b1
        (shapeCast S50000x256 mask shapeCasts_S1x50000x256_S50000x256)) w2) e)
      (broadcastInDim S50000x64 ![0, 1] bcast_S1x64_S50000x64_0_1 (broadcastInDim S1x64 ![1] bcast_S64_S1x64_1 b2)))

end Cert.Gcn

end
-- ==== Proof.KernelWalk.lean ====
/-
  The contents of the idealized kernel program's buffers at each boundary, as functions of the argument arrays.

  Walking the boundaries `W0 … W7` of the generated frame proof in order: a stretch of host operations computes each of its
  buffers from the buffers before it and leaves every other buffer alone; a kernel region leaves its output array at the
  whole-array product the row-block lemmas give and every other buffer alone. At the end the result buffer holds the
  two-layer graph convolution `gcn` of the seven argument arrays.
-/
import proofs.«141177_j62818191671411_2_alg».proof.Proof.Gen.KernelIdeal.Frame
import proofs.«141177_j62818191671411_2_alg».proof.Proof.RowBlocks
import proofs.«141177_j62818191671411_2_alg».proof.Proof.GcnLayers
import Idealize.ShloMosaic.Lib.StableHlo.Run

set_option maxRecDepth 16384

noncomputable section

namespace Cert.KernelIdeal.Walk

open Idealize.ShloMosaic Idealize.ShloMosaic.TcCoe Idealize.ShloMosaic.StableHlo Idealize.SL.Sem
open Cert.KernelIdeal Cert.KernelIdeal.Gen Cert.MatrixRows Cert.Gcn Cert.KernelIdeal.RowBlocks

variable (m : (ℓ : Loc nD τ sig) → Buf (Elt Ideal) ℓ) (ρ : Dev nD → PrngReg) (c : Dev nD)

/-! ## After the first stretch: the edge lists, the degree's two readings, the node features as a matrix -/

theorem at1_srcs : W1 m ρ c (Proc.devRef .tc main_v6) = srcs (m ((c : Thread nD τ).loc main_arg1)) := by
  unfold srcs
  dsimp only [W1, hostOps0]
  after_results_simp
  all_goals rfl

theorem at1_dsts : W1 m ρ c (Proc.devRef .tc main_v7) = dsts (m ((c : Thread nD τ).loc main_arg1)) := by
  unfold dsts
  dsimp only [W1, hostOps0]
  after_results_simp
  all_goals rfl

theorem at1_positive : W1 m ρ c (Proc.devRef .tc main_v13) = cmpf (F := Ideal) .ogt (degree (m ((c : Thread nD τ).loc main_arg1))) (broadcastInDim S50000 ![] Facts₀.bcast_S_S50000 (constant (F := Ideal) S_ .f32 0x00000000#32)) := by
  unfold degree dsts
  dsimp only [W1, hostOps0]
  after_results_simp
  all_goals rfl

theorem at1_rsqrt : W1 m ρ c (Proc.devRef .tc main_v14) = Host.rsqrt (degree (m ((c : Thread nD τ).loc main_arg1))) := by
  unfold degree dsts
  dsimp only [W1, hostOps0]
  after_results_simp
  all_goals rfl

theorem at1_zero : W1 m ρ c (Proc.devRef .tc main_cst_2) = constant (F := Ideal) S_ .f32 0x00000000#32 := by
  dsimp only [W1, hostOps0]
  after_results_simp
  all_goals rfl

theorem at1_x : W1 m ρ c (Proc.devRef .tc main_v0) = shapeCast S50000x512 (m ((c : Thread nD τ).loc main_arg0)) Facts₀.shapeCasts_S1x50000x512_S50000x512 := by
  dsimp only [W1, hostOps0]
  after_results_simp
  all_goals rfl

theorem at1_mask : W1 m ρ c (Proc.devRef .tc main_arg2) = m ((c : Thread nD τ).loc main_arg2) := by
  dsimp only [W1, hostOps0]
  after_results_simp
  all_goals rfl

theorem at1_w1 : W1 m ρ c (Proc.devRef .tc main_arg3) = m ((c : Thread nD τ).loc main_arg3) := by
  dsimp only [W1, hostOps0]
  after_results_simp
  all_goals rfl

theorem at1_b1 : W1 m ρ c (Proc.devRef .tc main_arg4) = m ((c : Thread nD τ).loc main_arg4) := by
  dsimp only [W1, hostOps0]
  after_results_simp
  all_goals rfl

theorem at1_w2 : W1 m ρ c (Proc.devRef .tc main_arg5) = m ((c : Thread nD τ).loc main_arg5) := by
  dsimp only [W1, hostOps0]
  after_results_simp
  all_goals rfl

theorem at1_b2 : W1 m ρ c (Proc.devRef .tc main_arg6) = m ((c : Thread nD τ).loc main_arg6) := by
  dsimp only [W1, hostOps0]
  after_results_simp
  all_goals rfl

/-! ## After the second stretch: the nodes' weights -/

/-- The second stretch is one call of "where": its result is the selection between its second operand and its third
    operand spread over the nodes, whatever the buffers held before. -/
theorem where_read (U : Valuation τ sig (Elt Ideal)) :
    StableHlo.after hostOps0_1 U (Proc.devRef .tc main_v15)
      = select (U (Proc.devRef .tc main_v13)) (U (Proc.devRef .tc main_v14))
          (broadcastInDim S50000 ![] Facts₀.bcast_S_S50000 (id (U (Proc.devRef .tc main_cst_2)))) := by
  dsimp only [hostOps0_1]
  after_results_simp
  rfl

theorem at2_degInv : W2 m ρ c (Proc.devRef .tc main_v15) = degInv (m ((c : Thread nD τ).loc main_arg1)) := by
  refine (where_read (W1 m ρ c)).trans ?_
  unfold degInv
  rw [at1_positive, at1_rsqrt, at1_zero]

theorem at2_srcs : W2 m ρ c (Proc.devRef .tc main_v6) = srcs (m ((c : Thread nD τ).loc main_arg1)) := by
  have h := at1_srcs m ρ c
  dsimp only [W2, hostOps0_1]
  generalize W1 m ρ c = U at h ⊢
  after_results_simp
  exact h

theorem at2_dsts : W2 m ρ c (Proc.devRef .tc main_v7) = dsts (m ((c : Thread nD τ).loc main_arg1)) := by
  have h := at1_dsts m ρ c
  dsimp only [W2, hostOps0_1]
  generalize W1 m ρ c = U at h ⊢
  after_results_simp
  exact h

theorem at2_x : W2 m ρ c (Proc.devRef .tc main_v0) = shapeCast S50000x512 (m ((c : Thread nD τ).loc main_arg0)) Facts₀.shapeCasts_S1x50000x512_S50000x512 := by
  have h := at1_x m ρ c
  dsimp only [W2, hostOps0_1]
  generalize W1 m ρ c = U at h ⊢
  after_results_simp
  exact h

theorem at2_mask : W2 m ρ c (Proc.devRef .tc main_arg2) = m ((c : Thread nD τ).loc main_arg2) := by
  have h := at1_mask m ρ c
  dsimp only [W2, hostOps0_1]
  generalize W1 m ρ c = U at h ⊢
  after_results_simp
  exact h

theorem at2_w1 : W2 m ρ c (Proc.devRef .tc main_arg3) = m ((c : Thread nD τ).loc main_arg3) := by
  have h := at1_w1 m ρ c
  dsimp only [W2, hostOps0_1]
  generalize W1 m ρ c = U at h ⊢
  after_results_simp
  exact h

theorem at2_b1 : W2 m ρ c (Proc.devRef .tc main_arg4) = m ((c : Thread nD τ).loc main_arg4) := by
  have h := at1_b1 m ρ c
  dsimp only [W2, hostOps0_1]
  generalize W1 m ρ c = U at h ⊢
  after_results_simp
  exact h

theorem at2_w2 : W2 m ρ c (Proc.devRef .tc main_arg5) = m ((c : Thread nD τ).loc main_arg5) := by
  have h := at1_w2 m ρ c
  dsimp only [W2, hostOps0_1]
  generalize W1 m ρ c = U at h ⊢
  after_results_simp
  exact h

theorem at2_b2 : W2 m ρ c (Proc.devRef .tc main_arg6) = m ((c : Thread nD τ).loc main_arg6) := by
  have h := at1_b2 m ρ c
  dsimp only [W2, hostOps0_1]
  generalize W1 m ρ c = U at h ⊢
  after_results_simp
  exact h

/-! ## At the first region's entry: the edges' weights; the weights and the mask in the kernels' storage formats
    (narrowing to a shorter float format does nothing at the extended reals; a mask entry is read as a number) -/

theorem at3_edgeNorm : W3 m ρ c (Proc.devRef .tc main_v30) = edgeNorm (m ((c : Thread nD τ).loc main_arg1)) := by
  have h1 := at2_degInv m ρ c
  have h2 := at2_srcs m ρ c
  have h3 := at2_dsts m ρ c
  unfold edgeNorm wrap
  dsimp only [W3, hostOps0_2]
  generalize W2 m ρ c = U at h1 h2 h3 ⊢
  after_results_simp
  rw [h1, h2, h3]

theorem at3_w1 : W3 m ρ c (Proc.devRef .tc main_v31) = m ((c : Thread nD τ).loc main_arg3) := by
  have h := at2_w1 m ρ c
  dsimp only [W3, hostOps0_2]
  generalize W2 m ρ c = U at h ⊢
  after_results_simp
  rw [h]
  rfl

theorem at3_w2 : W3 m ρ c (Proc.devRef .tc main_v32) = m ((c : Thread nD τ).loc main_arg5) := by
  have h := at2_w2 m ρ c
  dsimp only [W3, hostOps0_2]
  generalize W2 m ρ c = U at h ⊢
  after_results_simp
  rw [h]
  rfl

theorem at3_mask : W3 m ρ c (Proc.devRef .tc main_v34) = sitofp (F := Ideal) .bf16 (shapeCast S50000x256 (m ((c : Thread nD τ).loc main_arg2)) Facts₀.shapeCasts_S1x50000x256_S50000x256) := by
  have h := at2_mask m ρ c
  dsimp only [W3, hostOps0_2]
  generalize W2 m ρ c = U at h ⊢
  after_results_simp
  rw [h]
  rfl

theorem at3_srcs : W3 m ρ c (Proc.devRef .tc main_v6) = srcs (m ((c : Thread nD τ).loc main_arg1)) := by
  have h := at2_srcs m ρ c
  dsimp only [W3, hostOps0_2]
  generalize W2 m ρ c = U at h ⊢
  after_results_simp
  exact h

theorem at3_dsts : W3 m ρ c (Proc.devRef .tc main_v7) = dsts (m ((c : Thread nD τ).loc main_arg1)) := by
  have h := at2_dsts m ρ c
  dsimp only [W3, hostOps0_2]
  generalize W2 m ρ c = U at h ⊢
  after_results_simp
  exact h

theorem at3_x : W3 m ρ c (Proc.devRef .tc main_v0) = shapeCast S50000x512 (m ((c : Thread nD τ).loc main_arg0)) Facts₀.shapeCasts_S1x50000x512_S50000x512 := by
  have h := at2_x m ρ c
  dsimp only [W3, hostOps0_2]
  generalize W2 m ρ c = U at h ⊢
  after_results_simp
  exact h

theorem at3_b1 : W3 m ρ c (Proc.devRef .tc main_arg4) = m ((c : Thread nD τ).loc main_arg4) := by
  have h := at2_b1 m ρ c
  dsimp only [W3, hostOps0_2]
  generalize W2 m ρ c = U at h ⊢
  after_results_simp
  exact h

theorem at3_b2 : W3 m ρ c (Proc.devRef .tc main_arg6) = m ((c : Thread nD τ).loc main_arg6) := by
  have h := at2_b2 m ρ c
  dsimp only [W3, hostOps0_2]
  generalize W2 m ρ c = U at h ⊢
  after_results_simp
  exact h

/-! ## After the first region: its output holds the first product; nothing else moved -/

theorem at4_product : W4 m ρ c (Proc.devRef .tc main_v35) = mmul (M := 50000) (K := 512) (N := 256) (shapeCast S50000x512 (m ((c : Thread nD τ).loc main_arg0)) Facts₀.shapeCasts_S1x50000x512_S50000x512) (m ((c : Thread nD τ).loc main_arg3)) := by
  refine (W4_arr m ρ c 2).trans ?_
  refine (firstProduct (V3 m ρ) c).trans ?_
  show mmul (M := 50000) (K := 512) (N := 256) (W3 m ρ c (Proc.devRef .tc main_v0)) (W3 m ρ c (Proc.devRef .tc main_v31)) = _
  rw [at3_x, at3_w1]

theorem at4_srcs : W4 m ρ c (Proc.devRef .tc main_v6) = srcs (m ((c : Thread nD τ).loc main_arg1)) :=
  (W4_of_ne m ρ c main_v6 (by decide)).trans (at3_srcs m ρ c)

theorem at4_dsts : W4 m ρ c (Proc.devRef .tc main_v7) = dsts (m ((c : Thread nD τ).loc main_arg1)) :=
  (W4_of_ne m ρ c main_v7 (by decide)).trans (at3_dsts m ρ c)

theorem at4_edgeNorm : W4 m ρ c (Proc.devRef .tc main_v30) = edgeNorm (m ((c : Thread nD τ).loc main_arg1)) :=
  (W4_of_ne m ρ c main_v30 (by decide)).trans (at3_edgeNorm m ρ c)

theorem at4_mask : W4 m ρ c (Proc.devRef .tc main_v34) = sitofp (F := Ideal) .bf16 (shapeCast S50000x256 (m ((c : Thread nD τ).loc main_arg2)) Facts₀.shapeCasts_S1x50000x256_S50000x256) :=
  (W4_of_ne m ρ c main_v34 (by decide)).trans (at3_mask m ρ c)

theorem at4_w2 : W4 m ρ c (Proc.devRef .tc main_v32) = m ((c : Thread nD τ).loc main_arg5) :=
  (W4_of_ne m ρ c main_v32 (by decide)).trans (at3_w2 m ρ c)

theorem at4_b1 : W4 m ρ c (Proc.devRef .tc main_arg4) = m ((c : Thread nD τ).loc main_arg4) :=
  (W4_of_ne m ρ c main_arg4 (by decide)).trans (at3_b1 m ρ c)

theorem at4_b2 : W4 m ρ c (Proc.devRef .tc main_arg6) = m ((c : Thread nD τ).loc main_arg6) :=
  (W4_of_ne m ρ c main_arg6 (by decide)).trans (at3_b2 m ρ c)

/-! ## At the second region's entry: the first propagation step, the bias as a row -/

theorem at5_aggregate : W5 m ρ c (Proc.devRef .tc main_v48) = aggregate256 (mmul (M := 50000) (K := 512) (N := 256) (shapeCast S50000x512 (m ((c : Thread nD τ).loc main_arg0)) Facts₀.shapeCasts_S1x50000x512_S50000x512) (m ((c : Thread nD τ).loc main_arg3))) (m ((c : Thread nD τ).loc main_arg1)) := by
  unfold aggregate256 wrap
  dsimp only [W5, hostOps1]
  after_results_simp
  rw [at4_product, at4_srcs, at4_dsts, at4_edgeNorm]

theorem at5_bias : W5 m ρ c (Proc.devRef .tc main_v49) = shapeCast S1x256 (m ((c : Thread nD τ).loc main_arg4)) Facts₀.shapeCasts_S256_S1x256 := by
  dsimp only [W5, hostOps1]
  after_results_simp
  rw [at4_b1]
  rfl

theorem at5_srcs : W5 m ρ c (Proc.devRef .tc main_v6) = srcs (m ((c : Thread nD τ).loc main_arg1)) := by
  dsimp only [W5, hostOps1]
  after_results_simp
  exact at4_srcs m ρ c

theorem at5_dsts : W5 m ρ c (Proc.devRef .tc main_v7) = dsts (m ((c : Thread nD τ).loc main_arg1)) := by
  dsimp only [W5, hostOps1]
  after_results_simp
  exact at4_dsts m ρ c

theorem at5_edgeNorm : W5 m ρ c (Proc.devRef .tc main_v30) = edgeNorm (m ((c : Thread nD τ).loc main_arg1)) := by
  dsimp only [W5, hostOps1]
  after_results_simp
  exact at4_edgeNorm m ρ c

theorem at5_mask : W5 m ρ c (Proc.devRef .tc main_v34) = sitofp (F := Ideal) .bf16 (shapeCast S50000x256 (m ((c : Thread nD τ).loc main_arg2)) Facts₀.shapeCasts_S1x50000x256_S50000x256) := by
  dsimp only [W5, hostOps1]
  after_results_simp
  exact at4_mask m ρ c

theorem at5_w2 : W5 m ρ c (Proc.devRef .tc main_v32) = m ((c : Thread nD τ).loc main_arg5) := by
  dsimp only [W5, hostOps1]
  after_results_simp
  exact at4_w2 m ρ c

theorem at5_b2 : W5 m ρ c (Proc.devRef .tc main_arg6) = m ((c : Thread nD τ).loc main_arg6) := by
  dsimp only [W5, hostOps1]
  after_results_simp
  exact at4_b2 m ρ c

/-! ## After the second region: its output holds the second product; nothing else moved -/

theorem at6_product : W6 m ρ c (Proc.devRef .tc main_v50) = mmul (M := 50000) (K := 256) (N := 64) (clampScale (aggregate256 (mmul (M := 50000) (K := 512) (N := 256) (shapeCast S50000x512 (m ((c : Thread nD τ).loc main_arg0)) Facts₀.shapeCasts_S1x50000x512_S50000x512) (m ((c : Thread nD τ).loc main_arg3))) (m ((c : Thread nD τ).loc main_arg1))) (shapeCast S1x256 (m ((c : Thread nD τ).loc main_arg4)) Facts₀.shapeCasts_S256_S1x256) (sitofp (F := Ideal) .bf16 (shapeCast S50000x256 (m ((c : Thread nD τ).loc main_arg2)) Facts₀.shapeCasts_S1x50000x256_S50000x256))) (m ((c : Thread nD τ).loc main_arg5)) := by
  refine (W6_arr m ρ c 4).trans ?_
  refine (secondProduct (V5 m ρ) c).trans ?_
  show mmul (M := 50000) (K := 256) (N := 64) (clampScale (W5 m ρ c (Proc.devRef .tc main_v48)) (W5 m ρ c (Proc.devRef .tc main_v49))
    (W5 m ρ c (Proc.devRef .tc main_v34))) (W5 m ρ c (Proc.devRef .tc main_v32)) = _
  rw [at5_aggregate, at5_bias, at5_mask, at5_w2]

theorem at6_srcs : W6 m ρ c (Proc.devRef .tc main_v6) = srcs (m ((c : Thread nD τ).loc main_arg1)) :=
  (W6_of_ne m ρ c main_v6 (by decide)).trans (at5_srcs m ρ c)

theorem at6_dsts : W6 m ρ c (Proc.devRef .tc main_v7) = dsts (m ((c : Thread nD τ).loc main_arg1)) :=
  (W6_of_ne m ρ c main_v7 (by decide)).trans (at5_dsts m ρ c)

theorem at6_edgeNorm : W6 m ρ c (Proc.devRef .tc main_v30) = edgeNorm (m ((c : Thread nD τ).loc main_arg1)) :=
  (W6_of_ne m ρ c main_v30 (by decide)).trans (at5_edgeNorm m ρ c)

theorem at6_b2 : W6 m ρ c (Proc.devRef .tc main_arg6) = m ((c : Thread nD τ).loc main_arg6) :=
  (W6_of_ne m ρ c main_arg6 (by decide)).trans (at5_b2 m ρ c)

/-! ## At the return -/

/-- The left factor of the second product is the step between the layers: a vector reshaped to a row is that row, and a
    mask entry converted to a float is the integer it holds. -/
theorem clampScale_hidden (a : Mat 50000 256) (b : FVec Ideal S256 .f32) (k : IVec S50000x256 32) :
    clampScale a (shapeCast S1x256 b Facts₀.shapeCasts_S256_S1x256) (sitofp (F := Ideal) .bf16 k) = hidden a b k := by
  rw [shapeCast_asRow]
  funext i
  rfl

/-- The result buffer at the return is the two-layer graph convolution of the argument arrays. -/
theorem result_eq : W7 m ρ c (Proc.devRef .tc main_v67)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold gcn aggregate64 wrap
  dsimp only [W7, hostOps2]
  after_results_simp
  rw [at6_product, at6_srcs, at6_dsts, at6_edgeNorm, at6_b2, clampScale_hidden]

end Cert.KernelIdeal.Walk

end
-- ==== Proof.RefGcn.lean ====
/-
  The idealized reference program's result is the same two-layer graph convolution.

  The reference's run ends with its result at one composed term of its argument arrays. Read at the extended reals that term
  is `gcn`: its two dense products (the host's `dot_general` with one contracted axis) are the plain matrix product, the
  chain between the layers — add the bias spread over the rows, maximum with zero, times the mask converted to a float,
  times two — is `hidden` entry by entry, and everything else is the same host operations with the same dimension
  numbers (the two programs' records of them are equal field by field).
-/
import proofs.«141177_j62818191671411_2_alg».proof.Proof.RefRunPatched
import proofs.«141177_j62818191671411_2_alg».proof.Proof.GcnLayers
import proofs.«141177_j62818191671411_2_alg».proof.Proof.LibProductEntry
import Idealize.ShloMosaic.Lib.Pipeline.Value
import Idealize.ShloMosaic.Lib.ValueIdx

set_option maxRecDepth 16384

noncomputable section

namespace Cert.ReferenceIdeal.RefGcn

open Idealize.ShloMosaic Idealize.ShloMosaic.TcCoe Idealize.ShloMosaic.ValueIdx Idealize.SL.Sem Cert.MatrixRows Cert.Gcn
open Cert.ReferenceIdeal Cert.ReferenceIdeal.Facts₀

theorem firstProduct_ref (X : Mat 50000 512) (W : Mat 512 256) :
    Host.dotGeneral (F := Ideal) (φ₁ := .f32) (φ₂ := .f32) dot_S50000x512_S512x256_S50000x256_1_0_0_1_n_n none X W = mmul X W :=
  dotGeneral_plain none X W

theorem secondProduct_ref (X : Mat 50000 256) (W : Mat 256 64) :
    Host.dotGeneral (F := Ideal) (φ₁ := .f32) (φ₂ := .f32) dot_S50000x256_S256x64_S50000x64_1_0_0_1_n_n none X W = mmul X W :=
  dotGeneral_plain none X W

/-- The chain between the layers, entry by entry. -/
theorem hidden_ref (A : Mat 50000 256) (b : FVec Ideal S256 .f32) (M : IVec S50000x256 32) :
    mulf (F := Ideal) (mulf (maximumf (addf A (broadcastInDim S50000x256 ![0, 1] bcast_S1x256_S50000x256_0_1 (broadcastInDim S1x256 ![1] bcast_S256_S1x256_1 b))) (broadcastInDim S50000x256 ![] bcast_S_S50000x256 (constant (F := Ideal) S_ .f32 0x00000000#32))) (sitofp .f32 M)) (broadcastInDim S50000x256 ![] bcast_S_S50000x256 (constant (F := Ideal) S_ .f32 0x40000000#32))
      = hidden A b M := by
  rw [addf_broadcastInDim]
  funext i
  show max (addRow A (asRow b) i) (broadcastInDim S50000x256 ![] bcast_S_S50000x256 (constant (F := Ideal) S_ .f32 0x00000000#32) i)
      * (((M i).toInt : ℝ) : EReal) * broadcastInDim S50000x256 ![] bcast_S_S50000x256 (constant (F := Ideal) S_ .f32 0x40000000#32) i = _
  rw [bcast_scalar, bcast_scalar]
  rfl

/-! The two programs' records of dimension numbers are equal. -/
theorem record0 : Cert.ReferenceIdeal.scatter_S50000_S850000x1_S850000_n_0_0_1 = Cert.KernelIdeal.scatter_S50000_S850000x1_S850000_n_0_0_1 := rfl
theorem record1 : Cert.ReferenceIdeal.gather_S50000_S850000x1_S850000_n_0_n_n_0_1_1 = Cert.KernelIdeal.gather_S50000_S850000x1_S850000_n_0_n_n_0_1_1 := rfl
theorem record2 : Cert.ReferenceIdeal.gather_S50000x256_S850000x1_S850000x256_1_0_n_n_0_1_1256 = Cert.KernelIdeal.gather_S50000x256_S850000x1_S850000x256_1_0_n_n_0_1_1256 := rfl
theorem record3 : Cert.ReferenceIdeal.scatter_S50000x256_S850000x1_S850000x256_1_0_0_1 = Cert.KernelIdeal.scatter_S50000x256_S850000x1_S850000x256_1_0_0_1 := rfl
theorem record4 : Cert.ReferenceIdeal.gather_S50000x64_S850000x1_S850000x64_1_0_n_n_0_1_164 = Cert.KernelIdeal.gather_S50000x64_S850000x1_S850000x64_1_0_n_n_0_1_164 := rfl
theorem record5 : Cert.ReferenceIdeal.scatter_S50000x64_S850000x1_S850000x64_1_0_0_1 = Cert.KernelIdeal.scatter_S50000x64_S850000x1_S850000x64_1_0_0_1 := rfl

/-- The reference run's result term is the two-layer graph convolution of the reference's argument arrays. -/
theorem result_eq (m : (ℓ : Loc nD τ sig) → Buf (Elt Ideal) ℓ) (c : Dev nD) :
    ValueP.res_main_v97 m c = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold ValueP.res_main_v97
  rw [firstProduct_ref, hidden_ref, secondProduct_ref]
  simp only [record0, record1, record2, record3, record4, record5]
  unfold gcn aggregate64 aggregate256 edgeNorm degInv degree wrap srcs dsts
  with_reducible rfl

end Cert.ReferenceIdeal.RefGcn

end
-- ==== Proof.lean ====
/-
  The certificate: a two-layer graph convolution whose two dense products run as row-blocked matrix kernels, against the
  same network written with whole-array products.

  Both programs compute, from node features `x`, an edge list, an integer mask, two weight matrices and two bias vectors,
      out = P (H (P (x · W1) + b1) · W2) + b2,
  where `P` is one propagation step over the graph with self loops (every edge adds its source's row, scaled by the inverse
  square roots of its two ends' degrees, into its destination's row) and `H` clamps at zero, multiplies by the mask and
  doubles. The kernel program computes `x · W1` and `H (…) · W2` in 25 blocks of 2000 rows each, with the weights and the
  mask first stored in a shorter float format; the reference computes them whole. At the extended reals a change of float
  format does nothing, a block of rows of a product is that block of the left factor times the whole right factor, and the
  blocks tile the output, so both programs end with the one function `Cert.Gcn.gcn` of the arguments. No law that needs
  finite inputs is used: the two sides are the same sums, grouped the same way.

  * `frame_Kernel`, `frame_KernelIdeal`: the generated frame proofs of the two-region program.
  * `frame_ReferenceIdeal`: the reference's run with its result dropped.
  * `preserves_Kernel_KernelIdeal`: the idealization rewrote nothing.
  * `algebraic_KernelIdeal_ReferenceIdeal`: both runs end at `gcn` of arguments that agree.
-/
import proofs.«141177_j62818191671411_2_alg».proof.Defs
import proofs.«141177_j62818191671411_2_alg».proof.Proof.Gen.Kernel
import proofs.«141177_j62818191671411_2_alg».proof.Proof.Gen.Kernel.Skeleton
import proofs.«141177_j62818191671411_2_alg».proof.Proof.Gen.Kernel.Launch
import proofs.«141177_j62818191671411_2_alg».proof.Proof.Gen.Kernel.Points
import proofs.«141177_j62818191671411_2_alg».proof.Proof.Gen.Kernel.Frame
import proofs.«141177_j62818191671411_2_alg».proof.Proof.Gen.KernelIdeal
import proofs.«141177_j62818191671411_2_alg».proof.Proof.Gen.KernelIdeal.Skeleton
import proofs.«141177_j62818191671411_2_alg».proof.Proof.Gen.KernelIdeal.Launch
import proofs.«141177_j62818191671411_2_alg».proof.Proof.Gen.KernelIdeal.Points
import proofs.«141177_j62818191671411_2_alg».proof.Proof.Gen.KernelIdeal.Frame
import proofs.«141177_j62818191671411_2_alg».proof.Proof.Gen.ReferenceIdeal
import proofs.«141177_j62818191671411_2_alg».proof.Proof.Gen.Pre_finite_inputs
import proofs.«141177_j62818191671411_2_alg».proof.Proof.KernelResult
import proofs.«141177_j62818191671411_2_alg».proof.Proof.KernelWalk
import proofs.«141177_j62818191671411_2_alg».proof.Proof.RefRunPatched
import proofs.«141177_j62818191671411_2_alg».proof.Proof.RefGcn
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The idealized kernel program's run ends with its result at the two-layer graph convolution of its arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v67)
            = Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun _ h c => ⟨(h c).1.trans (Cert.KernelIdeal.Walk.result_eq m ρ c), (h c).2⟩)
    (Cert.KernelIdeal.Result.run_result (F := Ideal) m ρ)

/-- Both idealized programs, from memories agreeing on the arguments, end at the same function of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefGcn.result_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
